-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_v29) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x768 : Shape := ⟨2, ![32768, 768]⟩
abbrev S768x64 : Shape := ⟨2, ![768, 64]⟩
abbrev S64 : Shape := ⟨1, ![64]⟩
abbrev S_ : Shape := ⟨0, ![]⟩

class Facts : Prop where
  bcast_S_S32768x768 : S_.BroadcastsInDim S32768x768 (![] : Fin 0 → Fin S32768x768.rank)
  reducesTo_S32768x768_S_d0_1 : S32768x768.ReducesTo [0, 1] S_
  h_S_ : 0 < S_.numel
  bcast_S_S768x64 : S_.BroadcastsInDim S768x64 (![] : Fin 0 → Fin S768x64.rank)
  reducesTo_S768x64_S_d0_1 : S768x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S768x64 .f32) (main_arg5 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S768x64 .f32 := Host.absf main_arg4
  let main_cst_6 : FVec F S_ .f32 := constant S_ .f32 0x7F800000#32
  let main_v20 : FVec F S768x64 .f32 := broadcastInDim S768x64 ![] bcast_S_S768x64 main_cst_6
  let main_v21 : IVec S768x64 1 := cmpf .olt main_v19 main_v20
  let main_c_7 : IVec S_ 1 := constantI S_ 1 1#1
  let main_v22 : IVec S_ 1 := (fun x v => Host.reduce IntOp.andi x v reducesTo_S768x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S32768x768 .f32) (main_arg1 : FVec F S32768x768 .f32) (main_arg2 : FVec F S768x64 .f32) (main_arg3 : FVec F S64 .f32) (main_arg4 : FVec F S768x64 .f32) (main_arg5 : FVec F S64 .f32) : IVec S_ 1 :=
  let main_v0 : FVec F S32768x768 .f32 := Host.absf main_arg0
  let main_cst : FVec F S_ .f32 := constant S_ .f32 0x7F800000#32
  let main_v1 : FVec F S32768x768 .f32 := broadcastInDim S32768x768 ![] bcast_S_S32768x768 main_cst
  let main_v2 : IVec S32768x768 1 := cmpf .olt main_v0 main_v1
  let main_c : IVec S_ 1 := constantI S_ 1 1#1
  let main_v3 : IVec S_ 1 := (fun x v => Host.reduce IntOp.andi x v reducesTo_S32768x768_S_d0_1 h_S_) main_v2 main_c
  let main_v4 : FVec F S32768x768 .f32 := Host.absf main_arg1
  let main_cst_0 : FVec F S_ .f32 := constant S_ .f32 0x7F800000#32
  let main_v5 : FVec F S32768x768 .f32 := broadcastInDim S32768x768 ![] bcast_S_S32768x768 main_cst_0
  let main_v6 : IVec S32768x768 1 := cmpf .olt main_v4 main_v5
  let main_c_1 : IVec S_ 1 := constantI S_ 1 1#1
  let main_v7 : IVec S_ 1 := (fun x v => Host.reduce IntOp.andi x v reducesTo_S32768x768_S_d0_1 h_S_) main_v6 main_c_1
  let main_v8 : IVec S_ 1 := andi main_v3 main_v7
  let main_v9 : FVec F S768x64 .f32 := Host.absf main_arg2
  let main_cst_2 : FVec F S_ .f32 := constant S_ .f32 0x7F800000#32
  let main_v10 : FVec F S768x64 .f32 := broadcastInDim S768x64 ![] bcast_S_S768x64 main_cst_2
  let main_v11 : IVec S768x64 1 := cmpf .olt main_v9 main_v10
  let main_c_3 : IVec S_ 1 := constantI S_ 1 1#1
  let main_v12 : IVec S_ 1 := (fun x v => Host.reduce IntOp.andi x v reducesTo_S768x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_v13 main_v16
-- ==== Kernel.lean ====
abbrev S32768x768 : Shape := ⟨2, ![32768, 768]⟩
abbrev S768x64 : Shape := ⟨2, ![768, 64]⟩
abbrev S64 : Shape := ⟨1, ![64]⟩
abbrev S1x64 : Shape := ⟨2, ![1, 64]⟩
abbrev S64x768 : Shape := ⟨2, ![64, 768]⟩
abbrev S64x32768 : Shape := ⟨2, ![64, 32768]⟩
abbrev S4096x768 : Shape := ⟨2, ![4096, 768]⟩
abbrev S64x4096 : Shape := ⟨2, ![64, 4096]⟩
abbrev S4096x64 : Shape := ⟨2, ![4096, 64]⟩
abbrev S4096 : Shape := ⟨1, ![4096]⟩
abbrev S4096x1 : Shape := ⟨2, ![4096, 1]⟩
abbrev S32768x64 : Shape := ⟨2, ![32768, 64]⟩

abbrev nBuf : Space → Nat
  | .hbm => 14
  | .vmem => 12
  | .smem => 0
  | _ => 0

abbrev bufTy : (tb : Table) → Fin (tcTables nBuf tb) → BufTy
  | .hbm, ⟨0, _⟩ => ⟨S32768x768, .f32⟩
  | .hbm, ⟨1, _⟩ => ⟨S32768x768, .f32⟩
  | .hbm, ⟨2, _⟩ => ⟨S768x64, .f32⟩
  | .hbm, ⟨3, _⟩ => ⟨S64, .f32⟩
  | .hbm, ⟨4, _⟩ => ⟨S768x64, .f32⟩
  | .hbm, ⟨5, _⟩ => ⟨S64, .f32⟩
  | .hbm, ⟨6, _⟩ => ⟨S1x64, .f32⟩
  | .hbm, ⟨7, _⟩ => ⟨S1x64, .f32⟩
  | .hbm, ⟨8, _⟩ => ⟨S64x768, .f32⟩
  | .hbm, ⟨9, _⟩ => ⟨S64x768, .f32⟩
  | .hbm, ⟨10, _⟩ => ⟨S64x32768, .f32⟩
  | .hbm, ⟨11, _⟩ => ⟨S64x32768, .f32⟩
  | .hbm, ⟨12, _⟩ => ⟨S32768x64, .f32⟩
  | .hbm, ⟨13, _⟩ => ⟨S32768x64, .f32⟩
  | .local _ .vmem, ⟨0, _⟩ => ⟨S4096x768, .f32⟩
  | .local _ .vmem, ⟨1, _⟩ => ⟨S4096x768, .f32⟩
  | .local _ .vmem, ⟨2, _⟩ => ⟨S4096x768, .f32⟩
  | .local _ .vmem, ⟨3, _⟩ => ⟨S4096x768, .f32⟩
  | .local _ .vmem, ⟨4, _⟩ => ⟨S64x768, .f32⟩
  | .local _ .vmem, ⟨5, _⟩ => ⟨S1x64, .f32⟩
  | .local _ .vmem, ⟨6, _⟩ => ⟨S64x768, .f32⟩
  | .local _ .vmem, ⟨7, _⟩ => ⟨S1x64, .f32⟩
  | .local _ .vmem, ⟨8, _⟩ => ⟨S64x4096, .f32⟩
  | .local _ .vmem, ⟨9, _⟩ => ⟨S64x4096, .f32⟩
  | .local _ .vmem, ⟨10, _⟩ => ⟨S64x4096, .f32⟩
  | .local _ .vmem, ⟨11, _⟩ => ⟨S64x4096, .f32⟩
  | _, _ => ⟨S32768x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S64x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S64_S1x64 : S64.ShapeCasts S1x64
  transposes_S768x64_S64x768_1_0 : S768x64.Transposes [1, 0] S64x768
  inb_S4096x768_S4096x768_0_0 : ∀ a, (![0, 0] : Fin 2 → Nat) a + S4096x768.size a ≤ S4096x768.size a
  h_S4096x768 : 0 < S4096x768.numel
  inb_S64x768_S64x768_0_0 : ∀ a, (![0, 0] : Fin 2 → Nat) a + S64x768.size a ≤ S64x768.size a
  h_S64x768 : 0 < S64x768.numel
  shapeCasts_S64x768_S64x768 : S64x768.ShapeCasts S64x768
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4096x64 : S1x64.Broadcasts S4096x64
  reduces_S4096x64_S4096 : S4096x64.Reduces [1] S4096
  shapeCasts_S4096_S4096x1 : S4096.ShapeCasts S4096x1
  broadcasts_S4096x1_S4096x64 : S4096x1.Broadcasts S4096x64
  transposes_S4096x64_p1_0_S64x4096 : S4096x64.Transposes [1, 0] S64x4096
  inb_S64x4096_S64x4096_0_0 : ∀ a, (![0, 0] : Fin 2 → Nat) a + S64x4096.size a ≤ S64x4096.size a
  h_S64x4096 : 0 < S64x4096.numel
  transposes_S64x32768_S32768x64_1_0 : S64x32768.Transposes [1, 0] S32768x64
  dot_S4096x768_S64x768_S4096x64_1_1_0_0_n_n_wf : DotDims.WF S4096x768 S64x768 S4096x64 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x768.size a ≤ S32768x768.size a
  hwx0_0 : ∀ i : grid0.Coords, EltTy.bits .f32 = 32 ∨ (Rect.block (s := S32768x768) S4096x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x768.size a ≤ S32768x768.size a
  hwx0_1 : ∀ i : grid0.Coords, EltTy.bits .f32 = 32 ∨ (Rect.block (s := S32768x768) S4096x768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x768.size a ≤ S64x768.size a
  hwx0_2 : ∀ i : grid0.Coords, EltTy.bits .f32 = 32 ∨ (Rect.block (s := S64x768) S64x768.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x768.size a ≤ S64x768.size a
  hwx0_4 : ∀ i : grid0.Coords, EltTy.bits .f32 = 32 ∨ (Rect.block (s := S64x768) S64x768.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S64x4096.size a ≤ S64x32768.size a
  hwx0_6 : ∀ i : grid0.Coords, EltTy.bits .f32 = 32 ∨ (Rect.block (s := S64x32768) S64x4096.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S64x4096.size a ≤ S64x32768.size a
  hwx0_7 : ∀ i : grid0.Coords, EltTy.bits .f32 = 32 ∨ (Rect.block (s := S64x32768) S64x4096.size (cc0_transform_7 i) (hinb0_7 i)).WholeWords (EltTy.packing .f32)

variable [Facts₀]

def dot_S4096x768_S64x768_S4096x64_1_1_0_0_n_n : DotDims S4096x768 S64x768 S4096x64 where
  lhsContracting := [1]
  rhsContracting := [1]
  lhsNonContracting := [0]
  rhsNonContracting := [0]
  lhsBatch := []
  rhsBatch := []
  wf := dot_S4096x768_S64x768_S4096x64_1_1_0_0_n_n_wf

abbrev win0_0 : Pipeline.Window sig grid0 :=
  Pipeline.Window.ofSpec (Memref.whole main_arg0) S4096x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S64x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S64x768.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4_0) S64x4096.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v4_1) S64x4096.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S32768x768 : Shape := ⟨2, ![32768, 768]⟩
abbrev S768x64 : Shape := ⟨2, ![768, 64]⟩
abbrev S64 : Shape := ⟨1, ![64]⟩
abbrev S32768x64 : Shape := ⟨2, ![32768, 64]⟩
abbrev S1x64 : Shape := ⟨2, ![1, 64]⟩
abbrev S_ : Shape := ⟨0, ![]⟩
abbrev S32768 : Shape := ⟨1, ![32768]⟩
abbrev S32768x1 : Shape := ⟨2, ![32768, 1]⟩

abbrev nBuf : Space → Nat
  | .hbm => 42
  | .vmem => 0
  | .smem => 0
  | _ => 0

abbrev bufTy : (tb : Table) → Fin (tcTables nBuf tb) → BufTy
  | .hbm, ⟨0, _⟩ => ⟨S32768x768, .f32⟩
  | .hbm, ⟨1, _⟩ => ⟨S32768x768, .f32⟩
  | .hbm, ⟨2, _⟩ => ⟨S768x64, .f32⟩
  | .hbm, ⟨3, _⟩ => ⟨S64, .f32⟩
  | .hbm, ⟨4, _⟩ => ⟨S768x64, .f32⟩
  | .hbm, ⟨5, _⟩ => ⟨S64, .f32⟩
  | .hbm, ⟨6, _⟩ => ⟨S32768x64, .f32⟩
  | .hbm, ⟨7, _⟩ => ⟨S1x64, .f32⟩
  | .hbm, ⟨8, _⟩ => ⟨S32768x64, .f32⟩
  | .hbm, ⟨9, _⟩ => ⟨S32768x64, .f32⟩
  | .hbm, ⟨10, _⟩ => ⟨S32768x64, .f32⟩
  | .hbm, ⟨11, _⟩ => ⟨S1x64, .f32⟩
  | .hbm, ⟨12, _⟩ => ⟨S32768x64, .f32⟩
  | .hbm, ⟨13, _⟩ => ⟨S32768x64, .f32⟩
  | .hbm, ⟨14, _⟩ => ⟨S_, .f32⟩
  | .hbm, ⟨15, _⟩ => ⟨S32768, .f32⟩
  | .hbm, ⟨16, _⟩ => ⟨S_, .f32⟩
  | .hbm, ⟨17, _⟩ => ⟨S32768, .f32⟩
  | .hbm, ⟨18, _⟩ => ⟨S32768, .f32⟩
  | .hbm, ⟨19, _⟩ => ⟨S32768x1, .f32⟩
  | .hbm, ⟨20, _⟩ => ⟨S32768x64, .f32⟩
  | .hbm, ⟨21, _⟩ => ⟨S32768x64, .f32⟩
  | .hbm, ⟨22, _⟩ => ⟨S32768x64, .f32⟩
  | .hbm, ⟨23, _⟩ => ⟨S_, .f32⟩
  | .hbm, ⟨24, _⟩ => ⟨S32768, .f32⟩
  | .hbm, ⟨25, _⟩ => ⟨S32768x1, .f32⟩
  | .hbm, ⟨26, _⟩ => ⟨S32768x64, .f32⟩
  | .hbm, ⟨27, _⟩ => ⟨S32768x64, .f32⟩
  | .hbm, ⟨28, _⟩ => ⟨S_, .f32⟩
  | .hbm, ⟨29, _⟩ => ⟨S32768, .f32⟩
  | .hbm, ⟨30, _⟩ => ⟨S_, .f32⟩
  | .hbm, ⟨31, _⟩ => ⟨S32768, .f32⟩
  | .hbm, ⟨32, _⟩ => ⟨S32768, .f32⟩
  | .hbm, ⟨33, _⟩ => ⟨S32768x1, .f32⟩
  | .hbm, ⟨34, _⟩ => ⟨S32768x64, .f32⟩
  | .hbm, ⟨35, _⟩ => ⟨S32768x64, .f32⟩
  | .hbm, ⟨36, _⟩ => ⟨S32768x64, .f32⟩
  | .hbm, ⟨37, _⟩ => ⟨S_, .f32⟩
  | .hbm, ⟨38, _⟩ => ⟨S32768, .f32⟩
  | .hbm, ⟨39, _⟩ => ⟨S32768x1, .f32⟩
  | .hbm, ⟨40, _⟩ => ⟨S32768x64, .f32⟩
  | .hbm, ⟨41, _⟩ => ⟨S32768x64, .f32⟩
  | _, _ => ⟨S32768x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S32768x64_0_1 : S1x64.BroadcastsInDim S32768x64 (![0, 1] : Fin 2 → Fin S32768x64.rank)
  reducesTo_S32768x64_S32768_d1 : S32768x64.ReducesTo [1] S32768
  h_S_ : 0 < S_.numel
  bcast_S_S32768 : S_.BroadcastsInDim S32768 (![] : Fin 0 → Fin S32768.rank)
  bcast_S32768_S32768x1_0 : S32768.BroadcastsInDim S32768x1 (![0] : Fin 1 → Fin S32768x1.rank)
  bcast_S32768x1_S32768x64_0_1 : S32768x1.BroadcastsInDim S32768x64 (![0, 1] : Fin 2 → Fin S32768x64.rank)
  dot_S32768x768_S768x64_S32768x64_1_0_0_1_n_n_wf : DotDims.WF S32768x768 S768x64 S32768x64 [1] [0] [0] [1] [] []

variable [Facts₀]

def dot_S32768x768_S768x64_S32768x64_1_0_0_1_n_n : DotDims S32768x768 S768x64 S32768x64 where
  lhsContracting := [1]
  rhsContracting := [0]
  lhsNonContracting := [0]
  rhsNonContracting := [1]
  lhsBatch := []
  rhsBatch := []
  wf := dot_S32768x768_S768x64_S32768x64_1_0_0_1_n_n_wf

class Facts : Prop extends Facts₀ where

variable [Facts]
-- ==== Proof.RowSoftmax.lean ====
/-
  The routing weights of one token, as mathematics.

  A token has 768 features `x`; an expert `e` (of 64) scores it `logit e = (∑ k, x k · W k e) + b e`.
  The token's routing weight for expert `e` is the softmax of the scores, taken the numerically stable way:
  with `peak` the largest score (a fold of `max` started from the float word of −∞), each score is shifted by
  the peak and exponentiated (`weight`), and divided by the sum of the 64 shifted exponentials (`mass`).
  Everything is on the extended reals; the word the fold starts from is kept as a word and never evaluated.

  `routing` is that function over a whole batch: row `r` of the [32768, 768] token array against the
  [768, 64] weights and the [64] bias, at column `e`.
-/
import Idealize.ShloMosaic.PureOps.Ideal
import Idealize.ShloMosaic.Lib.ValueIdx

noncomputable section

namespace Cert.RowSoftmax

open Idealize.ShloMosaic Idealize.ShloMosaic.ValueIdx

/-- The value a row's maximum is folded from: the float word of −∞, as both programs print it. -/
abbrev start : EReal := Ideal.ofBits .f32 0xFF800000#32

/-- Expert `e`'s score of a token: the token's features against the expert's weight column, plus the expert's bias. -/
def logit (x : Fin 768 → EReal) (W : Fin 768 → Fin 64 → EReal) (b : Fin 64 → EReal) (e : Fin 64) : EReal :=
  (∑ k : Fin 768, x k * W k e) + b e

/-- The largest of the 64 scores. -/
def peak (x : Fin 768 → EReal) (W : Fin 768 → Fin 64 → EReal) (b : Fin 64 → EReal) : EReal :=
  (Finset.univ : Finset (Fin 64)).fold max start (logit x W b)

/-- A score shifted by the peak, exponentiated. -/
def weight (x : Fin 768 → EReal) (W : Fin 768 → Fin 64 → EReal) (b : Fin 64 → EReal) (e : Fin 64) : EReal :=
  Ideal.exp (logit x W b e - peak x W b)

/-- The sum of the 64 shifted exponentials. -/
def mass (x : Fin 768 → EReal) (W : Fin 768 → Fin 64 → EReal) (b : Fin 64 → EReal) : EReal :=
  ∑ e : Fin 64, weight x W b e

/-- The token's routing weight for expert `e`. -/
def prob (x : Fin 768 → EReal) (W : Fin 768 → Fin 64 → EReal) (b : Fin 64 → EReal) (e : Fin 64) : EReal :=
  Ideal.div (weight x W b e) (mass x W b)

/-- The routing weights of a batch of 32768 tokens: entry `(r, e)` is token `r`'s weight for expert `e`. -/
def routing (X : (⟨2, ![32768, 768]⟩ : Shape).Idx → EReal) (W : (⟨2, ![768, 64]⟩ : Shape).Idx → EReal)
    (B : (⟨1, ![64]⟩ : Shape).Idx → EReal) : (⟨2, ![32768, 64]⟩ : Shape).Idx → EReal :=
  fun i => prob (fun k => X (ix2 (i 0) k)) (fun k e => W (ix2 k e)) (fun e => B (ix1 e)) (i 1)

/-- The routing weight depends only on the values of the features, the weights and the bias. -/
theorem prob_congr {x x' : Fin 768 → EReal} {W W' : Fin 768 → Fin 64 → EReal} {b b' : Fin 64 → EReal}
    (hx : ∀ k, x k = x' k) (hW : ∀ k e, W k e = W' k e) (hb : ∀ e, b e = b' e) (e : Fin 64) :
    prob x W b e = prob x' W' b' e := by
  obtain rfl : x = x' := funext hx
  obtain rfl : W = W' := funext fun k => funext (hW k)
  obtain rfl : b = b' := funext hb
  rfl

/-- The peak is no smaller than the value it was folded from, so taking the larger of the two changes nothing. -/
theorem max_start_peak (x : Fin 768 → EReal) (W : Fin 768 → Fin 64 → EReal) (b : Fin 64 → EReal) :
    max start (peak x W b) = peak x W b :=
  max_eq_right ((Finset.le_fold_max _).mpr (Or.inl le_rfl))

end Cert.RowSoftmax

end
-- ==== Proof.LibColumn.lean ====
/-
  A sum kept as a column: the two layout steps every `sum(axis=1, keepdims=True)` meets, read at an index.

  A vector of `a` entries viewed as an `a × 1` column has, at `(i, 0)`, the vector's entry `i`; and an `a × 1`
  column repeated along `b` columns has, at `(p, c)`, the column's entry `p`.  (Their companions for a row — a
  vector viewed `1 × a`, a `1 × b` row repeated along `a` rows — are in the library's layout file.)
-/
import Idealize.ShloMosaic.Lib.ValueIdx
import Idealize.ShloMosaic.Lib.ValueLayout
import Idealize.ShloMosaic.Lib.Pipeline.Value

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.KernelBlock.lean ====
/-
  What the kernel's body computes on one block of 4096 tokens.

  The body takes the block's token rows `v0` [4096, 768], the weights TRANSPOSED `v1` [64, 768] and the bias as a
  one-row matrix `v4` [1, 64].  Its scores are the matrix product contracting the two 768-axes — entry `(p, e)` is
  `∑ k, v0 (p, k) · v1 (e, k)`, into a zero accumulator — plus the bias row repeated down the 4096 rows.  A row's maximum
  and a row's sum are lane reductions kept as columns ([4096] viewed [4096, 1] and repeated along the 64 columns); the
  result is transposed to [64, 4096].  So entry `(e, p)` of the stored value is token `p`'s routing weight for expert `e`,
  with the weights read transposed.  Both of the body's stored values are this one function of their three loads.
-/
import proofs.«136022_g7129645711856_cont_9to1_m_473_20_alg».proof.Proof.Gen.KernelIdeal.Skeleton
import proofs.«136022_g7129645711856_cont_9to1_m_473_20_alg».proof.Proof.RowSoftmax
import proofs.«136022_g7129645711856_cont_9to1_m_473_20_alg».proof.Proof.LibColumn
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Block

open Cert.KernelIdeal Cert.KernelIdeal.Gen Idealize.ShloMosaic Idealize.ShloMosaic.ValueIdx
open Cert.RowSoftmax

/-- The body's matrix product: both operands contracted on their second axis. -/
abbrev dotD : DotDims S4096x768 S64x768 S4096x64 := dot_S4096x768_S64x768_S4096x64_1_1_0_0_n_n

/-! ## The operand indices of the product -/

theorem lhs0 (i : S4096x64.Idx) (q : dotD.contr.Idx) : (dotD.lhsIdx i q 0).val = (i 0).val := by
  unfold DotDims.lhsIdx
  rw [dif_neg (show ¬(0 : Fin S4096x768.rank) ∈ dotD.lhsBatch by decide), dif_pos (show (0 : Fin S4096x768.rank) ∈ dotD.lhsNonContracting by decide)]
  rfl
theorem lhs1 (i : S4096x64.Idx) (q : dotD.contr.Idx) : (dotD.lhsIdx i q 1).val = (q ⟨0, by decide⟩).val :=
  dotD.lhsIdx_val_of_single rfl i q
theorem rhs0 (i : S4096x64.Idx) (q : dotD.contr.Idx) : (dotD.rhsIdx i q 0).val = (i 1).val := by
  unfold DotDims.rhsIdx
  rw [dif_neg (show ¬(0 : Fin S64x768.rank) ∈ dotD.rhsBatch by decide), dif_pos (show (0 : Fin S64x768.rank) ∈ dotD.rhsNonContracting by decide)]
  rfl
theorem rhs1 (i : S4096x64.Idx) (q : dotD.contr.Idx) : (dotD.rhsIdx i q 1).val = (q ⟨0, by decide⟩).val :=
  dotD.rhsIdx_val_of_single rfl i q

/-! ## The block's scores -/

/-- The block's scores: the product into a zero accumulator plus the bias row repeated down the rows. -/
def scores (v0 : FVec Ideal S4096x768 .f32) (v1 : FVec Ideal S64x768 .f32) (v4 : FVec Ideal S1x64 .f32) : FVec Ideal S4096x64 .f32 :=
  addf (matmul dotD none v0 (shapeCast S64x768 v1 shapeCasts_S64x768_S64x768) (constant S4096x64 .f32 0x00000000#32))
    (broadcastTo S4096x64 (shapeCast S1x64 v4 shapeCasts_S1x64_S1x64) broadcasts_S1x64_S4096x64)

/-- At `(p, e)` the block's score is expert `e`'s score of token `p`, the weights read transposed. -/
theorem scores_apply (v0 : FVec Ideal S4096x768 .f32) (v1 : FVec Ideal S64x768 .f32) (v4 : FVec Ideal S1x64 .f32)
    (p : Fin 4096) (e : Fin 64) :
    scores v0 v1 v4 (ix2 p e)
      = logit (fun k => v0 (ix2 p k)) (fun k e => v1 (ix2 e k)) (fun e => v4 (ix2 (0 : Fin 1) e)) e := by
  show FloatOps.matmul dotD none v0 (shapeCast S64x768 v1 shapeCasts_S64x768_S64x768) (constant S4096x64 .f32 0x00000000#32) (ix2 p e)
      + broadcastTo S4096x64 (shapeCast S1x64 v4 shapeCasts_S1x64_S1x64) broadcasts_S1x64_S4096x64 (ix2 p e) = _
  rw [Ideal.matmul_constant_zero_apply, shapeCast_self, shapeCast_self, broadcastTo_1b_ab_apply,
    ← Equiv.sum_comp (contrEquiv1 dotD 768 rfl rfl).symm]
  unfold logit
  refine congrArg (· + v4 (ix2 (0 : Fin 1) e)) (Finset.sum_congr rfl fun k _ => ?_)
  have hk := contrEquiv1_symm_val dotD 768 rfl rfl k
  have el : dotD.lhsIdx (ix2 p e) ((contrEquiv1 dotD 768 rfl rfl).symm k) = ix2 p k := funext fun a => Fin.ext (by
    match a with
    | ⟨0, _⟩ => exact lhs0 _ _
    | ⟨1, _⟩ => exact (lhs1 _ _).trans hk)
  have er : dotD.rhsIdx (ix2 p e) ((contrEquiv1 dotD 768 rfl rfl).symm k) = ix2 e k := funext fun a => Fin.ext (by
    match a with
    | ⟨0, _⟩ => exact rhs0 _ _
    | ⟨1, _⟩ => exact (rhs1 _ _).trans hk)
  rw [el, er]

/-! ## A row's maximum and sum, kept as columns -/

/-- A [4096] vector viewed as a column and repeated along the 64 columns. -/
def column (v : FVec Ideal S4096 .f32) : FVec Ideal S4096x64 .f32 :=
  broadcastTo S4096x64 (shapeCast S4096x1 v shapeCasts_S4096_S4096x1) broadcasts_S4096x1_S4096x64

theorem column_apply (v : FVec Ideal S4096 .f32) (p : Fin 4096) (e : Fin 64) : column v (ix2 p e) = v (ix1 p) :=
  (Cert.LibColumn.broadcastTo_a1_ab_apply _ broadcasts_S4096x1_S4096x64 p e).trans
    (Cert.LibColumn.shapeCast_a_a1_apply v shapeCasts_S4096_S4096x1 p 0)

/-- Entry `e` inserted on the reduced axis of row `p` is the index `(p, e)`. -/
theorem lift_eq (p : Fin 4096) (e : Fin 64) : reduces_S4096x64_S4096.lift (ix1 p) e = ix2 p e :=
  funext fun a => Fin.ext (by match a with | ⟨0, _⟩ => rfl | ⟨1, _⟩ => rfl)

/-- The lane maximum of each row, from the word of −∞. -/
def rowMax (L : FVec Ideal S4096x64 .f32) : FVec Ideal S4096 .f32 :=
  multiReduction .maximumf [1] S4096 L 0xFF800000#32 reduces_S4096x64_S4096 (.inl rfl) rfl

theorem rowMax_apply (L : FVec Ideal S4096x64 .f32) (p : Fin 4096) :
    rowMax L (ix1 p) = (Finset.univ : Finset (Fin 64)).fold max start (fun e => L (ix2 p e)) :=
  (Ideal.multiReduction_maximumf_single L 0xFF800000#32 reduces_S4096x64_S4096 (.inl rfl) rfl (ix1 p)).trans
    (congrArg (fun f : Fin 64 → EReal => (Finset.univ : Finset (Fin 64)).fold max start f)
      (funext fun e => congrArg L (lift_eq p e)))

/-- The lane sum of each row, from zero. -/
def rowSum (E : FVec Ideal S4096x64 .f32) : FVec Ideal S4096 .f32 :=
  multiReduction .add [1] S4096 E 0x00000000#32 reduces_S4096x64_S4096 (.inl rfl) rfl

theorem rowSum_apply (E : FVec Ideal S4096x64 .f32) (p : Fin 4096) :
    rowSum E (ix1 p) = ∑ e : Fin 64, E (ix2 p e) :=
  (Ideal.multiReduction_add_single E 0x00000000#32 reduces_S4096x64_S4096 (.inl rfl) rfl (ix1 p)).trans
    (Finset.sum_congr rfl fun e _ => congrArg E (lift_eq p e))

/-! ## From scores to routing weights -/

/-- Each score less its row's maximum, exponentiated. -/
def shifted (L : FVec Ideal S4096x64 .f32) : FVec Ideal S4096x64 .f32 := exp (subf L (column (rowMax L)))

/-- Each of those over its row's sum. -/
def normalized (L : FVec Ideal S4096x64 .f32) : FVec Ideal S4096x64 .f32 := divf (shifted L) (column (rowSum (shifted L)))

/-- If row `p` of `L` holds a token's scores, row `p` of `normalized L` holds its routing weights. -/
theorem normalized_apply (L : FVec Ideal S4096x64 .f32) (p : Fin 4096)
    (x : Fin 768 → EReal) (W : Fin 768 → Fin 64 → EReal) (b : Fin 64 → EReal)
    (hL : ∀ e : Fin 64, L (ix2 p e) = logit x W b e) (e : Fin 64) :
    normalized L (ix2 p e) = prob x W b e := by
  have hmax : rowMax L (ix1 p) = peak x W b := by
    rw [rowMax_apply]; unfold peak
    exact congrArg (fun f : Fin 64 → EReal => (Finset.univ : Finset (Fin 64)).fold max start f) (funext hL)
  have hsh : ∀ e' : Fin 64, shifted L (ix2 p e') = weight x W b e' := fun e' => by
    show Ideal.exp (L (ix2 p e') - column (rowMax L) (ix2 p e')) = _
    rw [column_apply, hmax, hL]; rfl
  show Ideal.div (shifted L (ix2 p e)) (column (rowSum (shifted L)) (ix2 p e)) = _
  rw [column_apply, rowSum_apply, hsh]
  unfold prob mass
  exact congrArg (Ideal.div (weight x W b e)) (Finset.sum_congr rfl fun e' _ => hsh e')

/-! ## The body's two stored values -/

/-- The first stored value is the normalized scores of its loads, transposed. -/
theorem pay1_eq (v0 : FVec Ideal S4096x768 .f32) (v1 : FVec Ideal S64x768 .f32) (v4 : FVec Ideal S1x64 .f32) :
    k0_pay1 (F := Ideal) v0 v1 v4
      = transpose S64x4096 [1, 0] (normalized (scores v0 v1 v4)) transposes_S4096x64_p1_0_S64x4096 := rfl

/-- The second stored value is the same function of its own loads. -/
theorem pay2_eq (v8 : FVec Ideal S4096x768 .f32) (v9 : FVec Ideal S64x768 .f32) (v12 : FVec Ideal S1x64 .f32) :
    k0_pay2 (F := Ideal) v8 v9 v12 = k0_pay1 (F := Ideal) v8 v9 v12 := rfl

/-- Entry `(e, p)` of the stored value is token `p`'s routing weight for expert `e`. -/
theorem pay1_apply (v0 : FVec Ideal S4096x768 .f32) (v1 : FVec Ideal S64x768 .f32) (v4 : FVec Ideal S1x64 .f32)
    (e : Fin 64) (p : Fin 4096) :
    k0_pay1 (F := Ideal) v0 v1 v4 (ix2 e p)
      = prob (fun k => v0 (ix2 p k)) (fun k e => v1 (ix2 e k)) (fun e => v4 (ix2 (0 : Fin 1) e)) e := by
  rw [pay1_eq]
  exact (transpose_ix2_apply (normalized (scores v0 v1 v4)) transposes_S4096x64_p1_0_S64x4096 e p).trans
    (normalized_apply _ p _ _ _ (fun e' => scores_apply v0 v1 v4 p e') e)

end Cert.KernelIdeal.Block

end
-- ==== Proof.KernelArray.lean ====
/-
  From the kernel's blocks to its result arrays.

  The host first transposes the two [768, 64] weight arrays and views the two [64] biases as one-row matrices.  The region
  then runs the body at 8 points: point `t` takes rows `4096 t … 4096 t + 4095` of each token array and the whole of each
  transposed weight array and bias row, and writes block `(0, t)` of each [64, 32768] output array.  Entry `(e, n)` of an
  output array is therefore token `n`'s routing weight for expert `e` (`routedT`), the 8 blocks covering the array.  The
  host finally transposes each output back to [32768, 64]: entry `(n, e)` is token `n`'s weight for expert `e`, and reading
  the transposed weights and the one-row bias back through their definitions this is `routing` of the program's arguments.
-/
import proofs.«136022_g7129645711856_cont_9to1_m_473_20_alg».proof.Proof.Gen.KernelIdeal.Frame
import proofs.«136022_g7129645711856_cont_9to1_m_473_20_alg».proof.Proof.KernelBlock
import proofs.«136022_g7129645711856_cont_9to1_m_473_20_alg».proof.Proof.RowSoftmax
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic

noncomputable section

namespace Cert.KernelIdeal.Routing

open Cert.KernelIdeal Cert.KernelIdeal.Gen Idealize.ShloMosaic Idealize.ShloMosaic.TcCoe Idealize.SL.Sem Idealize.ShloMosaic.ValueIdx
open Idealize.ShloMosaic.StableHlo
open Idealize.ShloMosaic.Pipeline (Dat)
open Cert.RowSoftmax

variable (m : (ℓ : Loc nD τ sig) → Buf (Elt Ideal) ℓ) (ρ : Dev nD → PrngReg)

theorem hz : (![0, 0] : Fin 2 → Nat) = fun _ => 0 := funext fun a => by fin_cases a <;> rfl

/-! ## What the host wrote before the region -/

/-- The first weight array as the region finds it: the argument transposed. -/
theorem weights2_entry (c : Dev nD) : (V m c main_v2 : S64x768.Idx → EReal)
    = transpose S64x768 [1, 0] (m ((c : Thread nD τ).loc main_arg2)) transposes_S768x64_S64x768_1_0 := by
  show StableHlo.after hostOps0 (fun b => m (c, b)) (Proc.devRef .tc main_v2) = _
  after_results

/-- The second weight array likewise. -/
theorem weights4_entry (c : Dev nD) : (V m c main_v3 : S64x768.Idx → EReal)
    = transpose S64x768 [1, 0] (m ((c : Thread nD τ).loc main_arg4)) transposes_S768x64_S64x768_1_0 := by
  show StableHlo.after hostOps0 (fun b => m (c, b)) (Proc.devRef .tc main_v3) = _
  after_results

/-- The first bias as the region finds it: the argument viewed as one row. -/
theorem bias3_entry (c : Dev nD) : (V m c main_v0 : S1x64.Idx → EReal)
    = shapeCast S1x64 (m ((c : Thread nD τ).loc main_arg3)) shapeCasts_S64_S1x64 := by
  show StableHlo.after hostOps0 (fun b => m (c, b)) (Proc.devRef .tc main_v0) = _
  after_results
  rfl

/-- The second bias likewise. -/
theorem bias5_entry (c : Dev nD) : (V m c main_v1 : S1x64.Idx → EReal)
    = shapeCast S1x64 (m ((c : Thread nD τ).loc main_arg5)) shapeCasts_S64_S1x64 := by
  show StableHlo.after hostOps0 (fun b => m (c, b)) (Proc.devRef .tc main_v1) = _
  after_results
  rfl

/-! ## The output arrays as one function -/

/-- Token `n`'s routing weight for expert `e` at entry `(e, n)`, from the token array, the TRANSPOSED weights and the
    bias as one row. -/
def routedT (X : S32768x768.Idx → EReal) (Wt : S64x768.Idx → EReal) (Br : S1x64.Idx → EReal) : S64x32768.Idx → EReal :=
  fun i => prob (fun k => X (ix2 (i 1) k)) (fun k e => Wt (ix2 e k)) (fun e => Br (ix2 (0 : Fin 1) e)) (i 0)

/-- Transposed back, over the transposed weights and the one-row bias, it is the routing weights of the arguments. -/
theorem transpose_routedT (X : S32768x768.Idx → EReal) (W : S768x64.Idx → EReal) (B : S64.Idx → EReal) :
    transpose S32768x64 [1, 0] (routedT X (transpose S64x768 [1, 0] W transposes_S768x64_S64x768_1_0)
        (shapeCast S1x64 B shapeCasts_S64_S1x64)) transposes_S64x32768_S32768x64_1_0
      = routing X W B := by
  funext i
  obtain ⟨r, e, rfl⟩ : ∃ (r : Fin 32768) (e : Fin 64), i = ix2 r e := ⟨i 0, i 1, eq_ix2 i⟩
  refine (transpose_ix2_apply _ transposes_S64x32768_S32768x64_1_0 r e).trans ?_
  unfold routedT routing
  exact prob_congr (fun k => rfl) (fun k e' => transpose_ix2_apply W transposes_S768x64_S64x768_1_0 e' k)
    (fun e' => shapeCast_a_1a_apply B shapeCasts_S64_S1x64 0 e') e

/-! ## The printed index maps, decided over the 8 points -/

/-- The token windows move down the rows with the point. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)
/-- The weight and bias windows stay on their whole arrays. -/
theorem whole_facts2 : ∀ t : Fin cfg0.N, win0_2.index t (0 : Fin 2) = 0 ∧ win0_2.index t (1 : Fin 2) = 0 :=
  (by decide +kernel : ∀ t : Fin grid0.N, _)
theorem whole_facts3 : ∀ t : Fin cfg0.N, win0_3.index t (0 : Fin 2) = 0 ∧ win0_3.index t (1 : Fin 2) = 0 :=
  (by decide +kernel : ∀ t : Fin grid0.N, _)
theorem whole_facts4 : ∀ t : Fin cfg0.N, win0_4.index t (0 : Fin 2) = 0 ∧ win0_4.index t (1 : Fin 2) = 0 :=
  (by decide +kernel : ∀ t : Fin grid0.N, _)
theorem whole_facts5 : ∀ t : Fin cfg0.N, win0_5.index t (0 : Fin 2) = 0 ∧ win0_5.index t (1 : Fin 2) = 0 :=
  (by decide +kernel : ∀ t : Fin grid0.N, _)
/-- The output windows move along the columns with the point. -/
theorem out_facts6 : ∀ t : Fin cfg0.N, win0_6.index t (0 : Fin 2) = 0 ∧ win0_6.index t (1 : Fin 2) = t.val :=
  (by decide +kernel : ∀ t : Fin grid0.N, _)
theorem out_facts7 : ∀ t : Fin cfg0.N, win0_7.index t (0 : Fin 2) = 0 ∧ win0_7.index t (1 : Fin 2) = t.val :=
  (by decide +kernel : ∀ t : Fin grid0.N, _)

/-! ## Output window 6: tokens from window 0, weights from window 2, bias from window 3 -/

/-- Row `p` of the token block at point `t` is row `4096 t + p` of the token array. -/
theorem tokens0_read (c : Dev nD) (t : Fin cfg0.N) (p : Fin 4096) (k : Fin 768) (r : Fin 32768) (hr : r.val = t.val * 4096 + p.val) :
    (iblk m c 0 t : FVec Ideal S4096x768 .f32) (ix2 p k) = (V m c main_arg0 : S32768x768.Idx → EReal) (ix2 r k) := by
  have e0 := (idx_facts t).1
  have e1 := (idx_facts t).2.1
  show V m c main_arg0 (((cfg0.win 0).blk t).view.emb (ix2 p k)) = V m c main_arg0 (ix2 r k)
  refine congrArg _ (funext fun a => Fin.ext ?_)
  match a with
  | ⟨0, _⟩ => show win0_0.index t (0 : Fin 2) * 4096 + 1 * p.val = r.val; omega
  | ⟨1, _⟩ => show win0_0.index t (1 : Fin 2) * 768 + 1 * k.val = k.val; omega

/-- The weight block is the whole transposed weight array at every point. -/
theorem weights2_read (c : Dev nD) (t : Fin cfg0.N) (e : Fin 64) (k : Fin 768) :
    (iblk m c 2 t : FVec Ideal S64x768 .f32) (ix2 e k) = (V m c main_v2 : S64x768.Idx → EReal) (ix2 e k) := by
  obtain ⟨e0, e1⟩ := whole_facts2 t
  show V m c main_v2 (((cfg0.win 2).blk t).view.emb (ix2 e k)) = V m c main_v2 (ix2 e k)
  refine congrArg _ (funext fun a => Fin.ext ?_)
  match a with
  | ⟨0, _⟩ => show win0_2.index t (0 : Fin 2) * 64 + 1 * e.val = e.val; omega
  | ⟨1, _⟩ => show win0_2.index t (1 : Fin 2) * 768 + 1 * k.val = k.val; omega

/-- The bias block is the whole one-row bias array at every point. -/
theorem bias3_read (c : Dev nD) (t : Fin cfg0.N) (e : Fin 64) :
    (iblk m c 3 t : FVec Ideal S1x64 .f32) (ix2 (0 : Fin 1) e) = (V m c main_v0 : S1x64.Idx → EReal) (ix2 (0 : Fin 1) e) := by
  obtain ⟨e0, e1⟩ := whole_facts3 t
  show V m c main_v0 (((cfg0.win 3).blk t).view.emb (ix2 (0 : Fin 1) e)) = V m c main_v0 (ix2 (0 : Fin 1) e)
  refine congrArg _ (funext fun a => Fin.ext ?_)
  match a with
  | ⟨0, _⟩ => show win0_3.index t (0 : Fin 2) * 1 + 1 * 0 = 0; omega
  | ⟨1, _⟩ => show win0_3.index t (1 : Fin 2) * 64 + 1 * e.val = e.val; omega

/-- Entry `j` of what point `t` stores for window 6 is the transposed routing array at `j`'s place in block `t`. -/
theorem entry6 (c : Dev nD) (t : Fin cfg0.N) (j : S64x4096.Idx) :
    k0_pay1 (F := Ideal) (iblk m c 0 t) (iblk m c 2 t) (iblk m c 3 t) j
      = routedT (V m c main_arg0) (V m c main_v2) (V m c main_v0) (((cfg0.win 6).blk t).view.emb j) := by
  obtain ⟨e, p, rfl⟩ : ∃ (e : Fin 64) (p : Fin 4096), j = ix2 e p := ⟨j 0, j 1, eq_ix2 j⟩
  obtain ⟨e0, e1⟩ := out_facts6 t
  have ht : t.val < 8 := by have := t.isLt; have hN : cfg0.N = 8 := N_0; omega
  refine (Block.pay1_apply (iblk m c 0 t) (iblk m c 2 t) (iblk m c 3 t) e p).trans ?_
  have hi : ((cfg0.win 6).blk t).view.emb (ix2 e p) = ix2 e (⟨t.val * 4096 + p.val, by omega⟩ : Fin 32768) :=
    funext fun a => Fin.ext (by
      match a with
      | ⟨0, _⟩ => show win0_6.index t (0 : Fin 2) * 64 + 1 * e.val = e.val; omega
      | ⟨1, _⟩ => show win0_6.index t (1 : Fin 2) * 4096 + 1 * p.val = t.val * 4096 + p.val; omega)
  rw [hi]
  unfold routedT
  exact prob_congr (fun k => tokens0_read m c t p k _ rfl) (fun k e' => weights2_read m c t e' k) (fun e' => bias3_read m c t e') e

/-- What point `t` writes back for window 6 is block `t` of the transposed routing array. -/
theorem flushed6_eq (c : Dev nD) (t : Fin cfg0.N) :
    (dats m 0 c).flushed 6 t = ((cfg0.win 6).blk t).view.read (Elt Ideal)
      (routedT (V m c main_arg0) (V m c main_v2) (V m c main_v0)) := by
  show (cfg0.win 6).cut (grid0.coords t) ((dats m 0 c).after 6 t) = _
  rw [after0_6]
  unfold out0_6
  rw [View.canon_unit_zero hz]
  simp only [View.ld_unit_zero (S := S4096x768) hz, View.ld_unit_zero (S := S64x768) hz, View.ld_unit_zero (S := S1x64) hz]
  funext j
  exact entry6 m c t j

/-- An index of the array is in point `t`'s block iff each coordinate is in the block's range on its axis. -/
theorem mem_blk6 (t : Fin cfg0.N) (i : S64x32768.Idx) :
    i ∈ ((cfg0.win 6).blk t).view.set ↔ ∀ a : Fin 2, win0_6.index t a * S64x4096.size a ≤ (i a).val ∧ (i a).val < win0_6.index t a * S64x4096.size a + S64x4096.size a := by
  show i ∈ ((View.whole main_v4_0).slice (win0_6.rect t)).set ↔ _
  rw [View.set_slice_whole, Rect.mem_set_unit]
  exact Iff.rfl

/-- Every column `n` of the [64, 32768] array lies in the block of point `n / 4096`. -/
theorem cover6 (i : S64x32768.Idx) : ∃ t : Fin cfg0.N, (cfg0.win 6).flush t = true ∧ i ∈ ((cfg0.win 6).blk t).view.set := by
  have hi0 : (i 0).val < 64 := (i 0).isLt
  have hi1 : (i 1).val < 32768 := (i 1).isLt
  have hN : cfg0.N = 8 := N_0
  obtain ⟨t, ht⟩ : ∃ t : Fin cfg0.N, t.val = (i 1).val / 4096 := ⟨⟨(i 1).val / 4096, by rw [hN]; omega⟩, rfl⟩
  obtain ⟨e0, e1⟩ := out_facts6 t
  refine ⟨t, flush0_6 t, ?_⟩
  rw [mem_blk6]
  intro a
  match a with
  | ⟨0, _⟩ => show win0_6.index t (0 : Fin 2) * 64 ≤ (i 0).val ∧ (i 0).val < win0_6.index t (0 : Fin 2) * 64 + 64; omega
  | ⟨1, _⟩ => show win0_6.index t (1 : Fin 2) * 4096 ≤ (i 1).val ∧ (i 1).val < win0_6.index t (1 : Fin 2) * 4096 + 4096; omega

/-- So after the region the window's array is the transposed routing array of the arrays the region found. -/
theorem final6 (c : Dev nD) : (dats m 0 c).arrAt 6 cfg0.N
    = routedT (V m c main_arg0) (V m c main_v2) (V m c main_v0) :=
  (dats m 0 c).arrAt_eq_of_cover 6 _ (fun t _ => flushed6_eq m c t) cover6

/-! ## Output window 7: tokens from window 1, weights from window 4, bias from window 5 -/

/-- Row `p` of the token block at point `t` is row `4096 t + p` of the token array. -/
theorem tokens1_read (c : Dev nD) (t : Fin cfg0.N) (p : Fin 4096) (k : Fin 768) (r : Fin 32768) (hr : r.val = t.val * 4096 + p.val) :
    (iblk m c 1 t : FVec Ideal S4096x768 .f32) (ix2 p k) = (V m c main_arg1 : S32768x768.Idx → EReal) (ix2 r k) := by
  have e0 := (idx_facts t).2.2.1
  have e1 := (idx_facts t).2.2.2
  show V m c main_arg1 (((cfg0.win 1).blk t).view.emb (ix2 p k)) = V m c main_arg1 (ix2 r k)
  refine congrArg _ (funext fun a => Fin.ext ?_)
  match a with
  | ⟨0, _⟩ => show win0_1.index t (0 : Fin 2) * 4096 + 1 * p.val = r.val; omega
  | ⟨1, _⟩ => show win0_1.index t (1 : Fin 2) * 768 + 1 * k.val = k.val; omega

/-- The weight block is the whole transposed weight array at every point. -/
theorem weights4_read (c : Dev nD) (t : Fin cfg0.N) (e : Fin 64) (k : Fin 768) :
    (iblk m c 4 t : FVec Ideal S64x768 .f32) (ix2 e k) = (V m c main_v3 : S64x768.Idx → EReal) (ix2 e k) := by
  obtain ⟨e0, e1⟩ := whole_facts4 t
  show V m c main_v3 (((cfg0.win 4).blk t).view.emb (ix2 e k)) = V m c main_v3 (ix2 e k)
  refine congrArg _ (funext fun a => Fin.ext ?_)
  match a with
  | ⟨0, _⟩ => show win0_4.index t (0 : Fin 2) * 64 + 1 * e.val = e.val; omega
  | ⟨1, _⟩ => show win0_4.index t (1 : Fin 2) * 768 + 1 * k.val = k.val; omega

/-- The bias block is the whole one-row bias array at every point. -/
theorem bias5_read (c : Dev nD) (t : Fin cfg0.N) (e : Fin 64) :
    (iblk m c 5 t : FVec Ideal S1x64 .f32) (ix2 (0 : Fin 1) e) = (V m c main_v1 : S1x64.Idx → EReal) (ix2 (0 : Fin 1) e) := by
  obtain ⟨e0, e1⟩ := whole_facts5 t
  show V m c main_v1 (((cfg0.win 5).blk t).view.emb (ix2 (0 : Fin 1) e)) = V m c main_v1 (ix2 (0 : Fin 1) e)
  refine congrArg _ (funext fun a => Fin.ext ?_)
  match a with
  | ⟨0, _⟩ => show win0_5.index t (0 : Fin 2) * 1 + 1 * 0 = 0; omega
  | ⟨1, _⟩ => show win0_5.index t (1 : Fin 2) * 64 + 1 * e.val = e.val; omega

/-- Entry `j` of what point `t` stores for window 7 is the transposed routing array at `j`'s place in block `t`. -/
theorem entry7 (c : Dev nD) (t : Fin cfg0.N) (j : S64x4096.Idx) :
    k0_pay1 (F := Ideal) (iblk m c 1 t) (iblk m c 4 t) (iblk m c 5 t) j
      = routedT (V m c main_arg1) (V m c main_v3) (V m c main_v1) (((cfg0.win 7).blk t).view.emb j) := by
  obtain ⟨e, p, rfl⟩ : ∃ (e : Fin 64) (p : Fin 4096), j = ix2 e p := ⟨j 0, j 1, eq_ix2 j⟩
  obtain ⟨e0, e1⟩ := out_facts7 t
  have ht : t.val < 8 := by have := t.isLt; have hN : cfg0.N = 8 := N_0; omega
  refine (Block.pay1_apply (iblk m c 1 t) (iblk m c 4 t) (iblk m c 5 t) e p).trans ?_
  have hi : ((cfg0.win 7).blk t).view.emb (ix2 e p) = ix2 e (⟨t.val * 4096 + p.val, by omega⟩ : Fin 32768) :=
    funext fun a => Fin.ext (by
      match a with
      | ⟨0, _⟩ => show win0_7.index t (0 : Fin 2) * 64 + 1 * e.val = e.val; omega
      | ⟨1, _⟩ => show win0_7.index t (1 : Fin 2) * 4096 + 1 * p.val = t.val * 4096 + p.val; omega)
  rw [hi]
  unfold routedT
  exact prob_congr (fun k => tokens1_read m c t p k _ rfl) (fun k e' => weights4_read m c t e' k) (fun e' => bias5_read m c t e') e

/-- What point `t` writes back for window 7 is block `t` of the transposed routing array. -/
theorem flushed7_eq (c : Dev nD) (t : Fin cfg0.N) :
    (dats m 0 c).flushed 7 t = ((cfg0.win 7).blk t).view.read (Elt Ideal)
      (routedT (V m c main_arg1) (V m c main_v3) (V m c main_v1)) := by
  show (cfg0.win 7).cut (grid0.coords t) ((dats m 0 c).after 7 t) = _
  rw [after0_7]
  unfold out0_7
  rw [View.canon_unit_zero hz]
  simp only [View.ld_unit_zero (S := S4096x768) hz, View.ld_unit_zero (S := S64x768) hz, View.ld_unit_zero (S := S1x64) hz]
  rw [Block.pay2_eq]
  funext j
  exact entry7 m c t j

/-- An index of the array is in point `t`'s block iff each coordinate is in the block's range on its axis. -/
theorem mem_blk7 (t : Fin cfg0.N) (i : S64x32768.Idx) :
    i ∈ ((cfg0.win 7).blk t).view.set ↔ ∀ a : Fin 2, win0_7.index t a * S64x4096.size a ≤ (i a).val ∧ (i a).val < win0_7.index t a * S64x4096.size a + S64x4096.size a := by
  show i ∈ ((View.whole main_v4_1).slice (win0_7.rect t)).set ↔ _
  rw [View.set_slice_whole, Rect.mem_set_unit]
  exact Iff.rfl

/-- Every column `n` of the [64, 32768] array lies in the block of point `n / 4096`. -/
theorem cover7 (i : S64x32768.Idx) : ∃ t : Fin cfg0.N, (cfg0.win 7).flush t = true ∧ i ∈ ((cfg0.win 7).blk t).view.set := by
  have hi0 : (i 0).val < 64 := (i 0).isLt
  have hi1 : (i 1).val < 32768 := (i 1).isLt
  have hN : cfg0.N = 8 := N_0
  obtain ⟨t, ht⟩ : ∃ t : Fin cfg0.N, t.val = (i 1).val / 4096 := ⟨⟨(i 1).val / 4096, by rw [hN]; omega⟩, rfl⟩
  obtain ⟨e0, e1⟩ := out_facts7 t
  refine ⟨t, flush0_7 t, ?_⟩
  rw [mem_blk7]
  intro a
  match a with
  | ⟨0, _⟩ => show win0_7.index t (0 : Fin 2) * 64 ≤ (i 0).val ∧ (i 0).val < win0_7.index t (0 : Fin 2) * 64 + 64; omega
  | ⟨1, _⟩ => show win0_7.index t (1 : Fin 2) * 4096 ≤ (i 1).val ∧ (i 1).val < win0_7.index t (1 : Fin 2) * 4096 + 4096; omega

/-- So after the region the window's array is the transposed routing array of the arrays the region found. -/
theorem final7 (c : Dev nD) : (dats m 0 c).arrAt 7 cfg0.N
    = routedT (V m c main_arg1) (V m c main_v3) (V m c main_v1) :=
  (dats m 0 c).arrAt_eq_of_cover 7 _ (fun t _ => flushed7_eq m c t) cover7

/-! ## The host's transposes after the region, and the run -/

/-- The first result: the first output array transposed back. -/
theorem tail5 (c : Dev nD) : Pipeline.afterTail₀ cfgs (dats m) 0 (V0 m) [hostOps1] c main_v5
    = transpose S32768x64 [1, 0] ((dats m 0 c).arrAt 6 cfg0.N) transposes_S64x32768_S32768x64_1_0 := by
  unfold Pipeline.afterTail₀
  show StableHlo.after hostOps1 _ (Proc.devRef .tc main_v5) = _
  after_results
  rw [Pipeline.withArrays_arr spec0 launch0.win.arr_inj c _ _ 6]

/-- The second result: the second output array transposed back. -/
theorem tail6 (c : Dev nD) : Pipeline.afterTail₀ cfgs (dats m) 0 (V0 m) [hostOps1] c main_v6
    = transpose S32768x64 [1, 0] ((dats m 0 c).arrAt 7 cfg0.N) transposes_S64x32768_S32768x64_1_0 := by
  unfold Pipeline.afterTail₀
  show StableHlo.after hostOps1 _ (Proc.devRef .tc main_v6) = _
  after_results
  rw [Pipeline.withArrays_arr spec0 launch0.win.arr_inj c _ _ 7]

/-- The first result is the routing weights of the first token array, weights and bias. -/
theorem result5 (c : Dev nD) : Pipeline.afterTail₀ cfgs (dats m) 0 (V0 m) [hostOps1] c main_v5
    = routing (m ((c : Thread nD τ).loc main_arg0)) (m ((c : Thread nD τ).loc main_arg2)) (m ((c : Thread nD τ).loc main_arg3)) := by
  rw [tail5, final6, weights2_entry, bias3_entry, V_main_arg0]
  exact transpose_routedT _ _ _

/-- The second result is the routing weights of the second token array, weights and bias. -/
theorem result6 (c : Dev nD) : Pipeline.afterTail₀ cfgs (dats m) 0 (V0 m) [hostOps1] c main_v6
    = routing (m ((c : Thread nD τ).loc main_arg1)) (m ((c : Thread nD τ).loc main_arg4)) (m ((c : Thread nD τ).loc main_arg5)) := by
  rw [tail6, final7, weights4_entry, bias5_entry, V_main_arg1]
  exact transpose_routedT _ _ _

/-- The kernel's run, read: every weakly fair execution ends with the two results at the routing weights of the arguments,
    and the arguments as launched. -/
theorem run : θ_run defs (onTc (τ := τ) (main (F := Ideal))) ⟨m, fun _ => 0, ρ⟩ fun r => ∀ c : Dev nD,
      r.2.mem ((c : Thread nD τ).loc main_v5)
        = routing (m ((c : Thread nD τ).loc main_arg0)) (m ((c : Thread nD τ).loc main_arg2)) (m ((c : Thread nD τ).loc main_arg3))
      ∧ r.2.mem ((c : Thread nD τ).loc main_v6)
        = routing (m ((c : Thread nD τ).loc main_arg1)) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c =>
    ⟨((h c).2 main_v5 (Pipeline.mem_restRefs_of main_v5 (by decide) (by decide))).trans (result5 m c),
      ((h c).2 main_v6 (Pipeline.mem_restRefs_of main_v6 (by decide) (by decide))).trans (result6 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.Routing

end
-- ==== Proof.ReferenceRouting.lean ====
/-
  The reference computes the routing weights.

  The reference is jnp's `softmax(x @ W + b)` on the host.  Read one operation at a time it is, at row `r` and column `e`:
  the product's entry `∑ k, x (r, k) · W (k, e)` plus the bias entry `b e` broadcast down the rows (the score); the row's
  maximum, a reduction with `max` from the word of −∞ over the 64 columns, then once more the larger of that word and the
  result (which changes nothing: the fold is already no smaller than its starting value); the score minus the row's maximum,
  exponentiated; the row's sum of those from zero; the quotient.  These are `logit`, `peak`, `weight`, `mass` and `prob`
  of the token's row, so the reference's result is `routing`.
-/
import proofs.«136022_g7129645711856_cont_9to1_m_473_20_alg».proof.Proof.Gen.ReferenceIdeal.Read
import proofs.«136022_g7129645711856_cont_9to1_m_473_20_alg».proof.Proof.RowSoftmax
import Idealize.ShloMosaic.PureOps.Ideal.Laws
import Idealize.ShloMosaic.PureOps.Reduce
import Idealize.ShloMosaic.Lib.ValueIdx

noncomputable section

namespace Cert.ReferenceIdeal.Routing

open Cert.ReferenceIdeal Cert.ReferenceIdeal.Gen Cert.ReferenceIdeal.Read Idealize.ShloMosaic Idealize.ShloMosaic.ValueIdx
open Cert.RowSoftmax

/-- Reducing a [32768, 64] array over its columns leaves a [32768] array. -/
theorem red : S32768x64.Reduces [1] S32768 := by decide

/-- Entry `e` inserted on the reduced axis of row `r` is the index `(r, e)`. -/
theorem lift_eq (r : Fin 32768) (e : Fin 64) : red.lift (ix1 r) e = ix2 r e :=
  funext fun a => Fin.ext (by match a with | ⟨0, _⟩ => rfl | ⟨1, _⟩ => rfl)

variable (X : (⟨S32768x768, .f32⟩ : BufTy).Contents (Elt Ideal)) (W : (⟨S768x64, .f32⟩ : BufTy).Contents (Elt Ideal))
  (B : (⟨S64, .f32⟩ : BufTy).Contents (Elt Ideal))

/-- The host's sum-of-products plus the broadcast bias, at `(r, e)`, is the score. -/
theorem score (r : Fin 32768) (e : Fin 64) :
    val_main_v3 (F := Ideal) X W B (ix2 r e)
      = logit (fun k => X (ix2 r k)) (fun k e => W (ix2 k e)) (fun e => B (ix1 e)) e := by
  rw [val_main_v3_apply, val_main_v0_apply, val_main_v2_apply, val_main_v1_apply]
  have hl : ∀ k : Fin 768, lidx_main_v0 (ix2 r e) k = ix2 r k := fun k =>
    funext fun a => Fin.ext (by match a with | ⟨0, _⟩ => rfl | ⟨1, _⟩ => rfl)
  have hr : ∀ k : Fin 768, ridx_main_v0 (ix2 r e) k = ix2 k e := fun k =>
    funext fun a => Fin.ext (by match a with | ⟨0, _⟩ => rfl | ⟨1, _⟩ => rfl)
  have hb : idx_main_v1 (idx_main_v2 (ix2 r e)) = ix1 e :=
    funext fun a => Fin.ext (by match a with | ⟨0, _⟩ => rfl)
  simp only [hl, hr, hb]
  rfl

/-- The host's reduction with `max` over the columns, then the larger of it and the word of −∞, at row `r`: the peak. -/
theorem rowPeak (r : Fin 32768) :
    val_main_v10 (F := Ideal) X W B (ix1 r)
      = peak (fun k => X (ix2 r k)) (fun k e => W (ix2 k e)) (fun e => B (ix1 e)) := by
  rw [val_main_v10_apply, val_main_v9_apply, val_main_cst_0_apply]
  unfold val_main_v8
  rw [Host.reduce_eq_fold_single (FloatOps.maximumf (F := Ideal) (φ := .f32)) _ _ reducesTo_S32768x64_S32768_d1 red h_S_ (ix1 r)]
  have hf : (val_main_v3 (F := Ideal) X W B ∘ red.lift (ix1 r))
      = logit (fun k => X (ix2 r k)) (fun k e => W (ix2 k e)) (fun e => B (ix1 e)) :=
    funext fun e => (congrArg (val_main_v3 (F := Ideal) X W B) (lift_eq r e)).trans (score X W B r e)
  rw [hf]
  exact max_start_peak _ _ _

/-- The score less the row's peak, exponentiated, at `(r, e)`. -/
theorem shifted (r : Fin 32768) (e : Fin 64) :
    val_main_v14 (F := Ideal) X W B (ix2 r e)
      = weight (fun k => X (ix2 r k)) (fun k e => W (ix2 k e)) (fun e => B (ix1 e)) e := by
  rw [val_main_v14_apply, val_main_v13_apply, val_main_v12_apply, val_main_v11_apply]
  have hi : idx_main_v11 (idx_main_v12 (ix2 r e)) = ix1 r :=
    funext fun a => Fin.ext (by match a with | ⟨0, _⟩ => rfl)
  rw [hi, rowPeak, score]
  rfl

/-- The row's sum of those, from zero. -/
theorem rowMass (r : Fin 32768) :
    val_main_v15 (F := Ideal) X W B (ix1 r)
      = mass (fun k => X (ix2 r k)) (fun k e => W (ix2 k e)) (fun e => B (ix1 e)) := by
  rw [val_main_v15_apply, val_main_cst_1_apply]
  have hi : ∀ k : Fin 64, idx_main_v15 (ix1 r) k = ix2 r k := fun k =>
    funext fun a => Fin.ext (by match a with | ⟨0, _⟩ => rfl | ⟨1, _⟩ => rfl)
  simp only [hi, shifted]
  show Ideal.ofBits .f32 0x00000000#32 + _ = _
  rw [Ideal.ofBits_zero_f32, zero_add]
  rfl

/-- The reference's result array is the routing weights of its arguments. -/
theorem result_eq : val_main_v18 (F := Ideal) X W B = routing X W B := by
  funext i
  obtain ⟨r, e, rfl⟩ : ∃ (r : Fin 32768) (e : Fin 64), i = ix2 r e := ⟨i 0, i 1, eq_ix2 i⟩
  rw [val_main_v18_apply, val_main_v17_apply, val_main_v16_apply]
  have hi : idx_main_v16 (idx_main_v17 (ix2 r e)) = ix1 r :=
    funext fun a => Fin.ext (by match a with | ⟨0, _⟩ => rfl)
  rw [hi, rowMass, shifted]
  rfl

end Cert.ReferenceIdeal.Routing

end
-- ==== Proof.lean ====
/-
  The certificate's claims, assembled.

  Both programs compute, for two independent (tokens, weights, bias) triples, the routing weights
  `softmax (x · W + b)` over the 64 experts of each of 32768 tokens.  The kernel does it block by block on transposed
  weights and writes transposed outputs which the host transposes back (Proof/KernelBlock.lean, Proof/KernelArray.lean);
  the reference does it in one pass on the host (Proof/ReferenceRouting.lean).  Index by index both are the function
  `routing` of Proof/RowSoftmax.lean: the same sums of products, the same maximum folded from −∞, the same exponentials and
  the same quotient, so no algebraic law beyond `max` absorbing its starting value is used and the inputs' finiteness is
  never needed.  The three frames are the generated frame runs (the reference's its generated run with the results
  dropped); the idealization rewrote nothing, so there is nothing to preserve.
-/
import proofs.«136022_g7129645711856_cont_9to1_m_473_20_alg».proof.Defs
import proofs.«136022_g7129645711856_cont_9to1_m_473_20_alg».proof.Proof.Gen.Kernel
import proofs.«136022_g7129645711856_cont_9to1_m_473_20_alg».proof.Proof.Gen.Kernel.Frame
import proofs.«136022_g7129645711856_cont_9to1_m_473_20_alg».proof.Proof.Gen.KernelIdeal
import proofs.«136022_g7129645711856_cont_9to1_m_473_20_alg».proof.Proof.Gen.KernelIdeal.Frame
import proofs.«136022_g7129645711856_cont_9to1_m_473_20_alg».proof.Proof.Gen.ReferenceIdeal
import proofs.«136022_g7129645711856_cont_9to1_m_473_20_alg».proof.Proof.Gen.Pre_finite_inputs
import proofs.«136022_g7129645711856_cont_9to1_m_473_20_alg».proof.Proof.Gen.ReferenceIdeal.Run
import proofs.«136022_g7129645711856_cont_9to1_m_473_20_alg».proof.Proof.Gen.ReferenceIdeal.Read
import proofs.«136022_g7129645711856_cont_9to1_m_473_20_alg».proof.Proof.KernelArray
import proofs.«136022_g7129645711856_cont_9to1_m_473_20_alg».proof.Proof.ReferenceRouting
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- From memories that agree on the six arguments both programs end with both results at `routing` of the arguments. -/
theorem algebraic : Cert.algebraic_KernelIdeal_ReferenceIdeal := by
  intro m ρ m' ρ' _ hagree
  refine ⟨_, _, Cert.KernelIdeal.Routing.run m ρ, ?_⟩
  refine (θ_run Cert.ReferenceIdeal.defs _ _).mono (fun _ h c => ?_) (Cert.ReferenceIdeal.Value.run (F := Ideal) m' ρ')
  obtain ⟨a0, a1, a2, a3, a4, a5⟩ := hagree c
  refine ⟨(h c).1.trans ?_, (h c).2.1.trans ?_, (h c).2.2⟩
  · rw [Cert.ReferenceIdeal.Read.val_main_v18_eq, Cert.ReferenceIdeal.Routing.result_eq, a0, a2, a3]
  · rw [Cert.ReferenceIdeal.Read.val_main_v18_eq, Cert.ReferenceIdeal.Routing.result_eq, a1, a4, a5]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
